-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel

variable [Facts]

def fn {F : FTy → Type} [FloatOps F] (main_arg0 : FVec F S4x2048x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  main_v3
-- ==== Kernel.lean ====
abbrev S4x2048x768 : Shape := ⟨3, ![4, 2048, 768]⟩
abbrev S_ : Shape := ⟨0, ![]⟩
abbrev S4x2059x768 : Shape := ⟨3, ![4, 2059, 768]⟩
abbrev S4x2048x9216 : Shape := ⟨3, ![4, 2048, 9216]⟩
abbrev S1x2059x768 : Shape := ⟨3, ![1, 2059, 768]⟩
abbrev S1x256x9216 : Shape := ⟨3, ![1, 256, 9216]⟩
abbrev S1x267x768 : Shape := ⟨3, ![1, 267, 768]⟩
abbrev S267x768 : Shape := ⟨2, ![267, 768]⟩
abbrev S256x768 : Shape := ⟨2, ![256, 768]⟩
abbrev S1x256x768 : Shape := ⟨3, ![1, 256, 768]⟩
abbrev S4x2048x12x768 : Shape := ⟨4, ![4, 2048, 12, 768]⟩
abbrev S2048 : Shape := ⟨1, ![2048]⟩
abbrev S12 : Shape := ⟨1, ![12]⟩
abbrev S2048x1 : Shape := ⟨2, ![2048, 1]⟩
abbrev S1x12 : Shape := ⟨2, ![1, 12]⟩
abbrev S2048x12 : Shape := ⟨2, ![2048, 12]⟩
abbrev S2048x12x1 : Shape := ⟨3, ![2048, 12, 1]⟩
abbrev S2048x12x2 : Shape := ⟨3, ![2048, 12, 2]⟩

abbrev nBuf : Space → Nat
  | .hbm => 18
  | .vmem => 4
  | .smem => 0
  | _ => 0

abbrev bufTy : (tb : Table) → Fin (tcTables nBuf tb) → BufTy
  | .hbm, ⟨0, _⟩ => ⟨S4x2048x768, .f32⟩
  | .hbm, ⟨1, _⟩ => ⟨S_, .i32⟩
  | .hbm, ⟨2, _⟩ => ⟨S_, .f32⟩
  | .hbm, ⟨3, _⟩ => ⟨S4x2059x768, .f32⟩
  | .hbm, ⟨4, _⟩ => ⟨S4x2048x9216, .f32⟩
  | .hbm, ⟨5, _⟩ => ⟨S4x2048x12x768, .f32⟩
  | .hbm, ⟨6, _⟩ => ⟨S2048, .i32⟩
  | .hbm, ⟨7, _⟩ => ⟨S12, .i32⟩
  | .hbm, ⟨8, _⟩ => ⟨S2048x1, .i32⟩
  | .hbm, ⟨9, _⟩ => ⟨S1x12, .i32⟩
  | .hbm, ⟨10, _⟩ => ⟨S2048x12, .i32⟩
  | .hbm, ⟨11, _⟩ => ⟨S2048x12, .i32⟩
  | .hbm, ⟨12, _⟩ => ⟨S2048x12, .i32⟩
  | .hbm, ⟨13, _⟩ => ⟨S2048x1, .i32⟩
  | .hbm, ⟨14, _⟩ => ⟨S2048x12, .i32⟩
  | .hbm, ⟨15, _⟩ => ⟨S2048x12x1, .i32⟩
  | .hbm, ⟨16, _⟩ => ⟨S2048x12x1, .i32⟩
  | .hbm, ⟨17, _⟩ => ⟨S2048x12x2, .i32⟩
  | .local _ .vmem, ⟨0, _⟩ => ⟨S1x2059x768, .f32⟩
  | .local _ .vmem, ⟨1, _⟩ => ⟨S1x2059x768, .f32⟩
  | .local _ .vmem, ⟨2, _⟩ => ⟨S1x256x9216, .f32⟩
  | .local _ .vmem, ⟨3, _⟩ => ⟨S1x256x9216, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2059x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S4x2048x768_S4x2059x768_000_0110_000 : S4x2048x768.Pads (![0, 0, 0] : Fin 3 → Nat) ![0, 11, 0] ![0, 0, 0] S4x2059x768
  h_S_ : 0 < S_.numel
  h_S1x267x768 : 0 < S1x267x768.numel
  shapeCasts_S1x267x768_S267x768 : S1x267x768.ShapeCasts S267x768
  slices_S267x768_o0_0_S256x768 : S267x768.Slices ![0, 0] S256x768
  inb_S1x256x9216_S1x256x768_0_0_0 : ∀ a, (![0, 0, 0] : Fin 3 → Nat) a + S1x256x768.size a ≤ S1x256x9216.size a
  h_S1x256x768 : 0 < S1x256x768.numel
  shapeCasts_S1x256x768_S256x768 : S1x256x768.ShapeCasts S256x768
  shapeCasts_S256x768_S1x256x768 : S256x768.ShapeCasts S1x256x768
  slices_S267x768_o1_0_S256x768 : S267x768.Slices ![1, 0] S256x768
  inb_S1x256x9216_S1x256x768_0_0_768 : ∀ a, (![0, 0, 768] : Fin 3 → Nat) a + S1x256x768.size a ≤ S1x256x9216.size a
  slices_S267x768_o2_0_S256x768 : S267x768.Slices ![2, 0] S256x768
  inb_S1x256x9216_S1x256x768_0_0_1536 : ∀ a, (![0, 0, 1536] : Fin 3 → Nat) a + S1x256x768.size a ≤ S1x256x9216.size a
  slices_S267x768_o3_0_S256x768 : S267x768.Slices ![3, 0] S256x768
  inb_S1x256x9216_S1x256x768_0_0_2304 : ∀ a, (![0, 0, 2304] : Fin 3 → Nat) a + S1x256x768.size a ≤ S1x256x9216.size a
  slices_S267x768_o4_0_S256x768 : S267x768.Slices ![4, 0] S256x768
  inb_S1x256x9216_S1x256x768_0_0_3072 : ∀ a, (![0, 0, 3072] : Fin 3 → Nat) a + S1x256x768.size a ≤ S1x256x9216.size a
  slices_S267x768_o5_0_S256x768 : S267x768.Slices ![5, 0] S256x768
  inb_S1x256x9216_S1x256x768_0_0_3840 : ∀ a, (![0, 0, 3840] : Fin 3 → Nat) a + S1x256x768.size a ≤ S1x256x9216.size a
  slices_S267x768_o6_0_S256x768 : S267x768.Slices ![6, 0] S256x768
  inb_S1x256x9216_S1x256x768_0_0_4608 : ∀ a, (![0, 0, 4608] : Fin 3 → Nat) a + S1x256x768.size a ≤ S1x256x9216.size a
  slices_S267x768_o7_0_S256x768 : S267x768.Slices ![7, 0] S256x768
  inb_S1x256x9216_S1x256x768_0_0_5376 : ∀ a, (![0, 0, 5376] : Fin 3 → Nat) a + S1x256x768.size a ≤ S1x256x9216.size a
  slices_S267x768_o8_0_S256x768 : S267x768.Slices ![8, 0] S256x768
  inb_S1x256x9216_S1x256x768_0_0_6144 : ∀ a, (![0, 0, 6144] : Fin 3 → Nat) a + S1x256x768.size a ≤ S1x256x9216.size a
  slices_S267x768_o9_0_S256x768 : S267x768.Slices ![9, 0] S256x768
  inb_S1x256x9216_S1x256x768_0_0_6912 : ∀ a, (![0, 0, 6912] : Fin 3 → Nat) a + S1x256x768.size a ≤ S1x256x9216.size a
  slices_S267x768_o10_0_S256x768 : S267x768.Slices ![10, 0] S256x768
  inb_S1x256x9216_S1x256x768_0_0_7680 : ∀ a, (![0, 0, 7680] : Fin 3 → Nat) a + S1x256x768.size a ≤ S1x256x9216.size a
  slices_S267x768_o11_0_S256x768 : S267x768.Slices ![11, 0] S256x768
  inb_S1x256x9216_S1x256x768_0_0_8448 : ∀ a, (![0, 0, 8448] : Fin 3 → Nat) a + S1x256x768.size a ≤ S1x256x9216.size a
  shapeCasts_S4x2048x9216_S4x2048x12x768 : S4x2048x9216.ShapeCasts S4x2048x12x768
  bcast_S2048_S2048x1_0 : S2048.BroadcastsInDim S2048x1 (![0] : Fin 1 → Fin S2048x1.rank)
  bcast_S12_S1x12_1 : S12.BroadcastsInDim S1x12 (![1] : Fin 1 → Fin S1x12.rank)
  bcast_S2048x1_S2048x12_0_1 : S2048x1.BroadcastsInDim S2048x12 (![0, 1] : Fin 2 → Fin S2048x12.rank)
  bcast_S1x12_S2048x12_0_1 : S1x12.BroadcastsInDim S2048x12 (![0, 1] : Fin 2 → Fin S2048x12.rank)
  bcast_S2048x12_S2048x12x1_0_1 : S2048x12.BroadcastsInDim S2048x12x1 (![0, 1] : Fin 2 → Fin S2048x12x1.rank)
  concatenates_S2048x12x1_S2048x12x1_S2048x12x2_d2 : Shape.Concatenates [S2048x12x1, S2048x12x1] S2048x12x2 2
  hrank0 : 0 < grid0.rank
  k0_mult1_dvd : ∀ i : grid0.Coords, 256 ∣ (k0_mult1 i).toNat
  k0_off1_inb : ∀ i : grid0.Coords, ∀ a, (k0_off1 i) a + S1x267x768.size a ≤ S1x2059x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2059x768.size a ≤ S4x2059x768.size a
  hwx0_0 : ∀ i : grid0.Coords, EltTy.bits .f32 = 32 ∨ (Rect.block (s := S4x2059x768) S1x2059x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x9216.size a ≤ S4x2048x9216.size a
  hwx0_1 : ∀ i : grid0.Coords, EltTy.bits .f32 = 32 ∨ (Rect.block (s := S4x2048x9216) S1x256x9216.size (cc0_transform_1 i) (hinb0_1 i)).WholeWords (EltTy.packing .f32)

variable [Facts₀]

abbrev win0_0 : Pipeline.Window sig grid0 :=
  Pipeline.Window.ofSpec (Memref.whole main_v0) S1x2059x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x9216.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S_ : Shape := ⟨0, ![]⟩
abbrev S4x2059x768 : Shape := ⟨3, ![4, 2059, 768]⟩
abbrev S2048 : Shape := ⟨1, ![2048]⟩
abbrev S12 : Shape := ⟨1, ![12]⟩
abbrev S2048x1 : Shape := ⟨2, ![2048, 1]⟩
abbrev S1x12 : Shape := ⟨2, ![1, 12]⟩
abbrev S2048x12 : Shape := ⟨2, ![2048, 12]⟩
abbrev S2048x12x1 : Shape := ⟨3, ![2048, 12, 1]⟩
abbrev S4x2048x12x768 : Shape := ⟨4, ![4, 2048, 12, 768]⟩
abbrev S4x2048x1x768 : Shape := ⟨4, ![4, 2048, 1, 768]⟩
abbrev S2048x12x2 : Shape := ⟨3, ![2048, 12, 2]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S_, .i32⟩
  | .hbm, ⟨2, _⟩ => ⟨S_, .f32⟩
  | .hbm, ⟨3, _⟩ => ⟨S4x2059x768, .f32⟩
  | .hbm, ⟨4, _⟩ => ⟨S2048, .i32⟩
  | .hbm, ⟨5, _⟩ => ⟨S12, .i32⟩
  | .hbm, ⟨6, _⟩ => ⟨S2048x1, .i32⟩
  | .hbm, ⟨7, _⟩ => ⟨S1x12, .i32⟩
  | .hbm, ⟨8, _⟩ => ⟨S2048x12, .i32⟩
  | .hbm, ⟨9, _⟩ => ⟨S2048x12, .i32⟩
  | .hbm, ⟨10, _⟩ => ⟨S2048x12, .i32⟩
  | .hbm, ⟨11, _⟩ => ⟨S_, .i32⟩
  | .hbm, ⟨12, _⟩ => ⟨S2048x12, .i32⟩
  | .hbm, ⟨13, _⟩ => ⟨S2048x12, .i1⟩
  | .hbm, ⟨14, _⟩ => ⟨S_, .i32⟩
  | .hbm, ⟨15, _⟩ => ⟨S2048x12, .i32⟩
  | .hbm, ⟨16, _⟩ => ⟨S2048x12, .i32⟩
  | .hbm, ⟨17, _⟩ => ⟨S2048x12, .i32⟩
  | .hbm, ⟨18, _⟩ => ⟨S2048x12x1, .i32⟩
  | .hbm, ⟨19, _⟩ => ⟨S4x2048x12x768, .f32⟩
  | .hbm, ⟨20, _⟩ => ⟨S4x2048x1x768, .f32⟩
  | .hbm, ⟨21, _⟩ => ⟨S4x2048x12x768, .f32⟩
  | .hbm, ⟨22, _⟩ => ⟨S4x2048x12x768, .f32⟩
  | .hbm, ⟨23, _⟩ => ⟨S4x2048x12x768, .f32⟩
  | .hbm, ⟨24, _⟩ => ⟨S4x2048x12x768, .f32⟩
  | .hbm, ⟨25, _⟩ => ⟨S4x2048x12x768, .i1⟩
  | .hbm, ⟨26, _⟩ => ⟨S4x2048x12x768, .f32⟩
  | .hbm, ⟨27, _⟩ => ⟨S4x2048x12x768, .f32⟩
  | .hbm, ⟨28, _⟩ => ⟨S4x2048x12x768, .f32⟩
  | .hbm, ⟨29, _⟩ => ⟨S4x2048x12x768, .f32⟩
  | .hbm, ⟨30, _⟩ => ⟨S4x2048x12x768, .f32⟩
  | .hbm, ⟨31, _⟩ => ⟨S4x2048x12x768, .f32⟩
  | .hbm, ⟨32, _⟩ => ⟨S4x2048x12x768, .f32⟩
  | .hbm, ⟨33, _⟩ => ⟨S4x2048x12x768, .f32⟩
  | .hbm, ⟨34, _⟩ => ⟨S2048x1, .i32⟩
  | .hbm, ⟨35, _⟩ => ⟨S2048x12, .i32⟩
  | .hbm, ⟨36, _⟩ => ⟨S2048x12x1, .i32⟩
  | .hbm, ⟨37, _⟩ => ⟨S2048x12x1, .i32⟩
  | .hbm, ⟨38, _⟩ => ⟨S2048x12x2, .i32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  pads_S4x2048x768_S4x2059x768_000_0110_000 : S4x2048x768.Pads (![0, 0, 0] : Fin 3 → Nat) ![0, 11, 0] ![0, 0, 0] S4x2059x768
  h_S_ : 0 < S_.numel
  bcast_S2048_S2048x1_0 : S2048.BroadcastsInDim S2048x1 (![0] : Fin 1 → Fin S2048x1.rank)
  bcast_S12_S1x12_1 : S12.BroadcastsInDim S1x12 (![1] : Fin 1 → Fin S1x12.rank)
  bcast_S2048x1_S2048x12_0_1 : S2048x1.BroadcastsInDim S2048x12 (![0, 1] : Fin 2 → Fin S2048x12.rank)
  bcast_S1x12_S2048x12_0_1 : S1x12.BroadcastsInDim S2048x12 (![0, 1] : Fin 2 → Fin S2048x12.rank)
  bcast_S_S2048x12 : S_.BroadcastsInDim S2048x12 (![] : Fin 0 → Fin S2048x12.rank)
  bcast_S2048x12_S2048x12x1_0_1 : S2048x12.BroadcastsInDim S2048x12x1 (![0, 1] : Fin 2 → Fin S2048x12x1.rank)
  bcast_S4x2048x768_S4x2048x1x768_0_1_3 : S4x2048x768.BroadcastsInDim S4x2048x1x768 (![0, 1, 3] : Fin 3 → Fin S4x2048x1x768.rank)
  bcast_S4x2048x1x768_S4x2048x12x768_0_1_2_3 : S4x2048x1x768.BroadcastsInDim S4x2048x12x768 (![0, 1, 2, 3] : Fin 4 → Fin S4x2048x12x768.rank)
  concatenates_S2048x12x1_S2048x12x1_S2048x12x2_d2 : Shape.Concatenates [S2048x12x1, S2048x12x1] S2048x12x2 2
  gather_S4x2059x768_S2048x12x1_S4x2048x12x768_03_1_n_n_1_2_41768_wf : GatherDims.WF S4x2059x768 S2048x12x1 S4x2048x12x768 [0, 3] [1] [] [1] [] 2 ![4, 1, 768]

variable [Facts₀]

def gather_S4x2059x768_S2048x12x1_S4x2048x12x768_03_1_n_n_1_2_41768 : GatherDims S4x2059x768 S2048x12x1 S4x2048x12x768 where
  offsetDims := [0, 3]
  collapsedSliceDims := [1]
  operandBatchingDims := []
  startIndicesBatchingDims := []
  startIndexMap := [1]
  indexVectorDim := 2
  sliceSizes := ![4, 1, 768]
  wf := gather_S4x2059x768_S2048x12x1_S4x2048x12x768_03_1_n_n_1_2_41768_wf

class Facts : Prop extends Facts₀ where

variable [Facts]
-- ==== Proof.LibLogAddExp.lean ====
/-
  The law that joins a log-sum-exp of two numbers computed directly, log (exp s + exp e), with the numerically
  stable form max s e + log (1 + exp (-|s - e|)): for REAL s and e the two are the same real number, because
  exp s + exp e = exp (max s e) · (1 + exp (-|s - e|)) and the logarithm of a product of positive numbers is the
  sum of the logarithms. Stated first over the reals, then over the extended reals for two real arguments, with the
  absolute value written as max d (-d), the way an absolute value reads on the extended reals.
  (For infinite arguments the two forms need not agree as extended reals: the statement is about finite inputs.)
-/
import Idealize.ShloMosaic.PureOps.Ideal

noncomputable section

namespace Idealize.ShloMosaic.LogAddExp

/-- log (exp a + exp b) = a + log (1 + exp (-(a - b))), for any reals (used with `b ≤ a`, where the exponent is ≤ 0). -/
theorem log_add_exp_of_le (a b : ℝ) : Real.log (Real.exp a + Real.exp b) = a + Real.log (1 + Real.exp (-(a - b))) := by
  have hb : Real.exp b = Real.exp a * Real.exp (-(a - b)) := by
    rw [← Real.exp_add]
    have hab : a + -(a - b) = b := by ring
    rw [hab]
  have h : Real.exp a + Real.exp b = Real.exp a * (1 + Real.exp (-(a - b))) := by
    rw [hb]
    ring
  have hpos : (0 : ℝ) < 1 + Real.exp (-(a - b)) := by positivity
  rw [h, Real.log_mul (Real.exp_pos a).ne' hpos.ne', Real.log_exp]

/-- Over the reals: log (exp s + exp e) = max s e + log (1 + exp (-(max (s - e) (-(s - e))))). -/
theorem real_law (s e : ℝ) :
    Real.log (Real.exp s + Real.exp e) = max s e + Real.log (1 + Real.exp (-(max (s - e) (-(s - e))))) := by
  rcases le_total e s with h | h
  · rw [max_eq_left h, max_eq_left (by linarith : -(s - e) ≤ s - e)]
    exact log_add_exp_of_le s e
  · have hneg : -(-(s - e)) = -(e - s) := by ring
    rw [max_eq_right h, max_eq_right (by linarith : s - e ≤ -(s - e)), add_comm (Real.exp s), log_add_exp_of_le e s, hneg]

/-- The inclusion of the reals into the extended reals is monotone, so it commutes with the maximum. -/
theorem coe_max (a b : ℝ) : ((max a b : ℝ) : EReal) = max (a : EReal) (b : EReal) :=
  EReal.coe_strictMono.monotone.map_max

/-- The same over the extended reals, for two real arguments, with the idealized exponential, logarithm and
    log (1 + ·): both sides are the real number of `real_law`. -/
theorem ideal_law (s e : ℝ) :
    Ideal.log (Ideal.exp (s : EReal) + Ideal.exp (e : EReal))
      = max (s : EReal) (e : EReal)
        + Ideal.log1p (Ideal.exp (-(max ((s : EReal) - (e : EReal)) (-((s : EReal) - (e : EReal)))))) := by
  have hpos : ¬ (Real.exp s + Real.exp e ≤ 0) := not_le.mpr (by positivity)
  have hpos' : ¬ (1 + Real.exp (-(max (s - e) (-(s - e)))) ≤ 0) := not_le.mpr (by positivity)
  have h1 : Ideal.exp (s : EReal) + Ideal.exp (e : EReal) = ((Real.exp s + Real.exp e : ℝ) : EReal) := by
    rw [Ideal.exp_coe, Ideal.exp_coe, EReal.coe_add]
  have h2 : -(max ((s : EReal) - (e : EReal)) (-((s : EReal) - (e : EReal))))
      = ((-(max (s - e) (-(s - e))) : ℝ) : EReal) := by
    rw [EReal.coe_neg, coe_max, EReal.coe_neg, EReal.coe_sub]
  have h3 : (1 : EReal) + Ideal.exp ((-(max (s - e) (-(s - e))) : ℝ) : EReal)
      = ((1 + Real.exp (-(max (s - e) (-(s - e)))) : ℝ) : EReal) := by
    rw [Ideal.exp_coe, EReal.coe_add, EReal.coe_one]
  unfold Ideal.log1p
  rw [h1, h2, h3, Ideal.log_coe, if_neg hpos, Ideal.log_coe, if_neg hpos', ← coe_max, ← EReal.coe_add, real_law]

end Idealize.ShloMosaic.LogAddExp

end
-- ==== Proof.Spec.lean ====
/-
  The value both programs compute, stated once, over literal shapes and with no program in sight.

  x is [4, 2048, 768]; P is x with 11 rows of padding appended on axis 1 ([4, 2059, 768]): row r of P is row r of x
  for r < 2048 and the padding value z on rows 2048 … 2058. For a batch b, a start row i < 2048, a width k < 12 and a
  feature d < 768 the span value is the log-sum-exp of the two endpoints, the start P(b, i, d) and the end
  P(b, i + k, d):

      span P (b, i, k, d) = log (exp P(b, i, d) + exp P(b, i + k, d)).

  The end row i + k ≤ 2047 + 11 = 2058 always lies inside P. The same values laid out with the last two axes merged
  ([4, 2048, 9216], lane c = 768·k + d) are `spanFlat`.

  The other way of writing a log-sum-exp of two numbers — max s e + log (1 + exp (-|s - e|)), guarded by a test
  "s - e is not a number" that an extended real never meets — agrees with it for REAL s and e (`stable_eq`).
-/
import Idealize.ShloMosaic.PureOps.Ideal
import Idealize.ShloMosaic.Lib.ValueIdx
import proofs.«151792_j90099823935817_2_alg».proof.Proof.LibLogAddExp

noncomputable section

namespace Cert.Span

open Idealize.ShloMosaic Idealize.ShloMosaic.ValueIdx

/-- The argument's shape, -/
abbrev SX : Shape := ⟨3, ![4, 2048, 768]⟩
/-- the padded array's, -/
abbrev SP : Shape := ⟨3, ![4, 2059, 768]⟩
/-- the result's, -/
abbrev SO : Shape := ⟨4, ![4, 2048, 12, 768]⟩
/-- and the result's with its last two axes merged. -/
abbrev SF : Shape := ⟨3, ![4, 2048, 9216]⟩

/-- Row i of the padded array, for a row i of the argument. -/
abbrev rowS (i : Fin 2048) : Fin 2059 := ⟨i.val, by have := i.isLt; omega⟩
/-- Row i + k of the padded array: the end of the span of width k that starts at row i. -/
abbrev rowE (i : Fin 2048) (k : Fin 12) : Fin 2059 := ⟨i.val + k.val, by have := i.isLt; have := k.isLt; omega⟩

/-- The argument with 11 rows holding z appended on axis 1. -/
def padded (x : SX.Idx → EReal) (z : EReal) : SP.Idx → EReal := fun p =>
  if h : (p 1).val < 2048 then x (ix3 (p 0) (⟨(p 1).val, h⟩ : Fin 2048) (p 2)) else z

theorem padded_lo (x : SX.Idx → EReal) (z : EReal) (b : Fin 4) (r : Fin 2059) (d : Fin 768) (h : r.val < 2048) :
    padded x z (ix3 b r d) = x (ix3 b (⟨r.val, h⟩ : Fin 2048) d) := by
  unfold padded
  rw [dif_pos (show ((ix3 b r d : SP.Idx) 1).val < 2048 from h)]

theorem padded_hi (x : SX.Idx → EReal) (z : EReal) (b : Fin 4) (r : Fin 2059) (d : Fin 768) (h : ¬ r.val < 2048) :
    padded x z (ix3 b r d) = z := by
  unfold padded
  rw [dif_neg (show ¬ ((ix3 b r d : SP.Idx) 1).val < 2048 from h)]

/-- The padding value both programs use: the integer zero converted to a float — the real number 0, written as the
    conversion spells it. -/
abbrev zpad : EReal := (((0#32 : BitVec 32).toInt : ℝ) : EReal)

theorem zpad_real : ∃ r : ℝ, zpad = (r : EReal) := ⟨_, rfl⟩

/-- A padded array of real numbers, padded with a real number, holds real numbers. -/
theorem padded_real (x : SX.Idx → EReal) (z : EReal) (hx : ∀ i, ∃ r : ℝ, x i = (r : EReal)) (hz : ∃ r : ℝ, z = (r : EReal))
    (p : SP.Idx) : ∃ r : ℝ, padded x z p = (r : EReal) := by
  unfold padded
  by_cases h : (p 1).val < 2048
  · rw [dif_pos h]; exact hx _
  · rw [dif_neg h]; exact hz

/-- The span value from its coordinates: the log-sum-exp of the start row's entry and the end row's. -/
def spanAt (P : SP.Idx → EReal) (b : Fin 4) (i : Fin 2048) (k : Fin 12) (d : Fin 768) : EReal :=
  Ideal.log (Ideal.exp (P (ix3 b (rowS i) d)) + Ideal.exp (P (ix3 b (rowE i k) d)))

/-- The result array [4, 2048, 12, 768]. -/
def span (P : SP.Idx → EReal) : SO.Idx → EReal := fun j => spanAt P (j 0) (j 1) (j 2) (j 3)

/-- The width and the feature of a merged lane c = 768·k + d. -/
abbrev laneK (c : Fin 9216) : Fin 12 := ⟨c.val / 768, by have := c.isLt; omega⟩
abbrev laneD (c : Fin 9216) : Fin 768 := ⟨c.val % 768, Nat.mod_lt _ (by decide)⟩

/-- The same values with the last two axes merged, [4, 2048, 9216]. -/
def spanFlat (P : SP.Idx → EReal) : SF.Idx → EReal := fun j => spanAt P (j 0) (j 1) (laneK (j 2)) (laneD (j 2))

/-- One batch's padded rows as a block, [1, 2059, 768], -/
abbrev SB : Shape := ⟨3, ![1, 2059, 768]⟩
/-- and one tile of 256 start rows of the merged result, [1, 256, 9216]. -/
abbrev SBO : Shape := ⟨3, ![1, 256, 9216]⟩

/-- What tile l (start rows 256·l … 256·l + 255) of one batch holds, from that batch's padded rows x0: at row r of
    the tile and lane c = 768·k + d, the log-sum-exp of x0 at rows 256·l + r and 256·l + r + k, feature d. -/
def blockVal (x0 : SB.Idx → EReal) (l : Fin 8) (y : SBO.Idx) : EReal :=
  Ideal.log
    (Ideal.exp (x0 (ix3 (0 : Fin 1) (⟨256 * l.val + (y 1).val, by
        have h1 : (y 1).val < 256 := (y 1).isLt
        have := l.isLt; omega⟩ : Fin 2059) (laneD (y 2))))
      + Ideal.exp (x0 (ix3 (0 : Fin 1) (⟨256 * l.val + (y 1).val + (laneK (y 2)).val, by
        have h1 : (y 1).val < 256 := (y 1).isLt
        have h2 : (laneK (y 2)).val < 12 := (laneK (y 2)).isLt
        have := l.isLt; omega⟩ : Fin 2059) (laneD (y 2)))))

/-- The comparison "d ≠ d" is false at every extended real: there is no not-a-number among them. -/
theorem une_self (d : EReal) : FloatOps.cmpf (F := Ideal) (φ := .f32) .une d d = 0#1 := by
  show Ideal.cmp .une d d = 0#1
  simp [Ideal.cmp]

/-- The guarded stable form of a log-sum-exp of two REAL numbers is the direct form. -/
theorem stable_eq (s e : EReal) (hs : ∃ r : ℝ, s = (r : EReal)) (he : ∃ r : ℝ, e = (r : EReal)) :
    Scalar.select (FloatOps.cmpf (F := Ideal) (φ := .f32) .une (FloatOps.subf (F := Ideal) (φ := .f32) s e) (FloatOps.subf (F := Ideal) (φ := .f32) s e))
        (FloatOps.addf (F := Ideal) (φ := .f32) s e)
        (FloatOps.addf (F := Ideal) (φ := .f32) (FloatOps.maximumf (F := Ideal) (φ := .f32) s e)
          (FloatOps.hostUnary (F := Ideal) (φ := .f32) .log1p (FloatOps.hostUnary (F := Ideal) (φ := .f32) .exp
            (FloatOps.hostNegf (F := Ideal) (φ := .f32) (FloatOps.hostAbsf (F := Ideal) (φ := .f32) (FloatOps.subf (F := Ideal) (φ := .f32) s e))))))
      = Ideal.log (Ideal.exp s + Ideal.exp e) := by
  obtain ⟨rs, rfl⟩ := hs
  obtain ⟨re, rfl⟩ := he
  rw [une_self, select_zero]
  exact (LogAddExp.ideal_law rs re).symm

end Cert.Span

end
-- ==== Proof.KBlock.lean ====
/-
  What the kernel's body leaves in the output's staging buffer at one grid point, as values.

  At point (b, l) the body loads rows 256·l … 256·l + 266 of batch b's padded rows (267 rows: the 256 start rows of
  the tile and the 11 rows past them that the widest span reaches), takes their exponential ONCE, and for each width
  k = 0 … 11 adds the exponentials of rows r and r + k, takes the logarithm and stores the [256, 768] result at lanes
  768·k … 768·k + 767 of the [256, 9216] tile. So the twelve stores are the twelve lane tiles of ONE function of the
  tile's index (`Cert.Span.blockVal`), and a buffer written by tiles of one function holds that function.
-/
import proofs.«151792_j90099823935817_2_alg».proof.Proof.Gen.KernelIdeal.Frame
import proofs.«151792_j90099823935817_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.KBlock

open Idealize.ShloMosaic Idealize.ShloMosaic.TcCoe Idealize.SL.Sem Idealize.ShloMosaic.Tactic
open Idealize.ShloMosaic.ValueIdx
open Cert.KernelIdeal Cert.KernelIdeal.Gen

/-- Rows q … q + 255 of the exponential of the loaded rows, read at (r', d): the exponential of the loaded block at
    row r = q + r'. -/
theorem slice_exp_apply (v3 : Vec Ideal S1x267x768 .f32) (q : Nat) (off2 : Fin 2 → Nat) (hoff2 : off2 = ![q, 0])
    (hc1 : S1x267x768.ShapeCasts S267x768) (hs : S267x768.Slices off2 S256x768) (j : S256x768.Idx) (r : Fin 267)
    (hr : r.val = q + (j 0).val) :
    extractStridedSlice S256x768 off2 (exp (F := Ideal) (φ := .f32) (shapeCast S267x768 v3 hc1)) hs j
      = Ideal.exp (v3 (ix3 (0 : Fin 1) r (j 1))) := by
  subst hoff2
  refine (extractStridedSlice_apply _ _ hs j (ix2 r (j 1)) (fun a => ?_)).trans ?_
  · match a with
    | ⟨0, _⟩ => show r.val = q + (j 0).val; exact hr
    | ⟨1, _⟩ => show (j 1).val = 0 + (j 1).val; omega
  · show Ideal.exp (shapeCast S267x768 v3 hc1 (ix2 r (j 1))) = _
    refine congrArg Ideal.exp ?_
    refine (shapeCast_dropUnit_apply ![267, 768] v3 hc1 (ix2 r (j 1))).trans ?_
    refine congrArg v3 ?_
    funext a
    match a with
    | ⟨0, _⟩ => rfl
    | ⟨1, _⟩ => rfl
    | ⟨2, _⟩ => rfl

/-- The 267 rows the body loads at tile l, read at (0, r, d): the resident block at row 256·l + r. -/
theorem ld_apply (x0 : Vec Ideal S1x2059x768 .f32) (l : Fin 8) (offL : Fin 3 → Nat) (hoffL : offL = ![0, 256 * l.val, 0])
    (inbL : ∀ a, offL a + S1x267x768.size a ≤ S1x2059x768.size a) (r : Fin 267) (d : Fin 768) :
    View.ld (Val := Elt Ideal) (e' := EltTy.f32) x0 (Rect.unit (s := S1x2059x768) offL S1x267x768.size inbL) (ix3 (0 : Fin 1) r d)
      = x0 (ix3 (0 : Fin 1) (⟨256 * l.val + r.val, by have := l.isLt; have := r.isLt; omega⟩ : Fin 2059) d) := by
  subst hoffL
  show x0 ((Rect.unit (s := S1x2059x768) ![0, 256 * l.val, 0] S1x267x768.size inbL).idx (ix3 (0 : Fin 1) r d)) = _
  refine congrArg x0 ?_
  funext a
  apply Fin.ext
  match a with
  | ⟨0, _⟩ => show 0 + 1 * 0 = 0; rfl
  | ⟨1, _⟩ => show 256 * l.val + 1 * r.val = 256 * l.val + r.val; omega
  | ⟨2, _⟩ => show 0 + 1 * d.val = d.val; omega

/-- ONE store of the body, for the width o: its payload at (0, r, d) is the tile's function at the index the store's
    rectangle (lanes 768·o …) places it. The loaded rows v3 enter through what they read at (0, r, d) only. -/
theorem piece_eq (x0 : Vec Ideal S1x2059x768 .f32) (l : Fin 8) (v3 : Vec Ideal S1x267x768 .f32)
    (hv3 : ∀ (r : Fin 267) (d : Fin 768), v3 (ix3 (0 : Fin 1) r d)
      = x0 (ix3 (0 : Fin 1) (⟨256 * l.val + r.val, by have := l.isLt; have := r.isLt; omega⟩ : Fin 2059) d))
    (o : Fin 12) (offk : Fin 2 → Nat) (hoffk : offk = ![o.val, 0]) (offS : Fin 3 → Nat) (hoffS : offS = ![0, 0, 768 * o.val])
    (inbS : ∀ a, offS a + S1x256x768.size a ≤ S1x256x9216.size a)
    (hc1 : S1x267x768.ShapeCasts S267x768) (h0 : S267x768.Slices ![0, 0] S256x768) (hk : S267x768.Slices offk S256x768)
    (hc2 : S256x768.ShapeCasts S1x256x768) (x : S1x256x768.Idx) :
    shapeCast S1x256x768 (log (F := Ideal) (φ := .f32) (addf (F := Ideal) (φ := .f32)
        (extractStridedSlice S256x768 ![0, 0] (exp (F := Ideal) (φ := .f32) (shapeCast S267x768 v3 hc1)) h0)
        (extractStridedSlice S256x768 offk (exp (F := Ideal) (φ := .f32) (shapeCast S267x768 v3 hc1)) hk))) hc2 x
      = Cert.Span.blockVal x0 l ((Rect.unit (s := S1x256x9216) offS S1x256x768.size inbS).emb x) := by
  subst hoffk hoffS
  have hx1 : (x 1).val < 256 := (x 1).isLt
  have hx2 : (x 2).val < 768 := (x 2).isLt
  have hl : l.val < 8 := l.isLt
  have ho : o.val < 12 := o.isLt
  refine (shapeCast_addUnit_apply ![256, 768] _ hc2 x).trans ?_
  have eA := slice_exp_apply v3 0 ![0, 0] rfl hc1 h0 (fun a => x a.succ) (⟨(x 1).val, by omega⟩ : Fin 267)
    (by show (x 1).val = 0 + (x 1).val; omega)
  have eB := slice_exp_apply v3 o.val ![o.val, 0] rfl hc1 hk (fun a => x a.succ) (⟨o.val + (x 1).val, by omega⟩ : Fin 267) rfl
  refine (congrArg₂ (fun u v : EReal => Ideal.log (u + v)) eA eB).trans ?_
  refine (congrArg₂ (fun u v : EReal => Ideal.log (Ideal.exp u + Ideal.exp v)) (hv3 _ _) (hv3 _ _)).trans ?_
  unfold Cert.Span.blockVal
  refine congrArg₂ (fun u v => Ideal.log (Ideal.exp (x0 u) + Ideal.exp (x0 v))) ?_ ?_
  · funext a
    apply Fin.ext
    match a with
    | ⟨0, _⟩ => rfl
    | ⟨1, _⟩ => show 256 * l.val + (x 1).val = 256 * l.val + (0 + 1 * (x 1).val); omega
    | ⟨2, _⟩ => show (x 2).val = (768 * o.val + 1 * (x 2).val) % 768; omega
  · funext a
    apply Fin.ext
    match a with
    | ⟨0, _⟩ => rfl
    | ⟨1, _⟩ =>
      show 256 * l.val + (o.val + (x 1).val) = 256 * l.val + (0 + 1 * (x 1).val) + (768 * o.val + 1 * (x 2).val) / 768
      omega
    | ⟨2, _⟩ => show (x 2).val = (768 * o.val + 1 * (x 2).val) % 768; omega

end Cert.KernelIdeal.KBlock

end
-- ==== Proof.KOut.lean ====
/-
  The output's staging buffer after the body at one grid point IS the tile's function.

  The generated run of the body finds twelve pieces, one per store; they tile the [1, 256, 9216] buffer (the generated
  cover), and each is the lane tile 768·k … 768·k + 767 of `Cert.Span.blockVal` of the resident input block and the
  point's tile number (`piece_eq`, once per store). A buffer written by tiles of one function holds that function.
-/
import proofs.«151792_j90099823935817_2_alg».proof.Proof.KBlock

set_option maxRecDepth 16384

noncomputable section

namespace Cert.KernelIdeal.KBlock

open Idealize.ShloMosaic Idealize.ShloMosaic.TcCoe Idealize.SL.Sem Idealize.ShloMosaic.Tactic
open Idealize.ShloMosaic.ValueIdx
open Cert.KernelIdeal Cert.KernelIdeal.Gen

/-- What the body leaves in the output's staging buffer, on any whole staging memrefs, from the resident input block
    x0 at the point with coordinates i: the tile function of x0 and the tile number i 1. -/
theorem out_eq (c : Dev nD) (i : grid0.Coords) (arg2 : Memref sig .tc .vmem S1x2059x768 .f32) (harg2 : arg2.IsWhole)
    (arg3 : Memref sig .tc .vmem S1x256x9216 .f32) (harg3 : arg3.IsWhole) (x0 : Vec Ideal S1x2059x768 .f32) :
    out0_A_1 (F := Ideal) c i arg2 harg2 arg3 harg3 x0 = Cert.Span.blockVal x0 (i 1) := by
  unfold out0_A_1
  rw [View.read_writes_eq_canon _ _ _ (cover0_A_1 c i arg2 harg2 arg3 harg3 x0)]
  funext y
  refine View.canon_apply_of_pieces (Cert.Span.blockVal x0 (i 1)) _ ?_ y (cover0_A_1 c i arg2 harg2 arg3 harg3 x0 y)
  unfold kernelRun0_A
  dsimp only
  sl_unfold_words
  simp only [View.readAt_eq_ld, harg2.read_unread]
  have hv := ld_apply x0 (i 1) (k0_off1 i) (k0_off1_eq i) (k0_off1_inb i)
  intro p hp
  simp only [List.mem_cons, List.not_mem_nil, or_false] at hp
  rcases hp with rfl | rfl | rfl | rfl | rfl | rfl | rfl | rfl | rfl | rfl | rfl | rfl
  · intro x
    exact piece_eq x0 (i 1) _ hv 11 ![11, 0] rfl ![0, 0, 8448] rfl inb_S1x256x9216_S1x256x768_0_0_8448
      shapeCasts_S1x267x768_S267x768 slices_S267x768_o0_0_S256x768 slices_S267x768_o11_0_S256x768 shapeCasts_S256x768_S1x256x768 x
  · intro x
    exact piece_eq x0 (i 1) _ hv 10 ![10, 0] rfl ![0, 0, 7680] rfl inb_S1x256x9216_S1x256x768_0_0_7680
      shapeCasts_S1x267x768_S267x768 slices_S267x768_o0_0_S256x768 slices_S267x768_o10_0_S256x768 shapeCasts_S256x768_S1x256x768 x
  · intro x
    exact piece_eq x0 (i 1) _ hv 9 ![9, 0] rfl ![0, 0, 6912] rfl inb_S1x256x9216_S1x256x768_0_0_6912
      shapeCasts_S1x267x768_S267x768 slices_S267x768_o0_0_S256x768 slices_S267x768_o9_0_S256x768 shapeCasts_S256x768_S1x256x768 x
  · intro x
    exact piece_eq x0 (i 1) _ hv 8 ![8, 0] rfl ![0, 0, 6144] rfl inb_S1x256x9216_S1x256x768_0_0_6144
      shapeCasts_S1x267x768_S267x768 slices_S267x768_o0_0_S256x768 slices_S267x768_o8_0_S256x768 shapeCasts_S256x768_S1x256x768 x
  · intro x
    exact piece_eq x0 (i 1) _ hv 7 ![7, 0] rfl ![0, 0, 5376] rfl inb_S1x256x9216_S1x256x768_0_0_5376
      shapeCasts_S1x267x768_S267x768 slices_S267x768_o0_0_S256x768 slices_S267x768_o7_0_S256x768 shapeCasts_S256x768_S1x256x768 x
  · intro x
    exact piece_eq x0 (i 1) _ hv 6 ![6, 0] rfl ![0, 0, 4608] rfl inb_S1x256x9216_S1x256x768_0_0_4608
      shapeCasts_S1x267x768_S267x768 slices_S267x768_o0_0_S256x768 slices_S267x768_o6_0_S256x768 shapeCasts_S256x768_S1x256x768 x
  · intro x
    exact piece_eq x0 (i 1) _ hv 5 ![5, 0] rfl ![0, 0, 3840] rfl inb_S1x256x9216_S1x256x768_0_0_3840
      shapeCasts_S1x267x768_S267x768 slices_S267x768_o0_0_S256x768 slices_S267x768_o5_0_S256x768 shapeCasts_S256x768_S1x256x768 x
  · intro x
    exact piece_eq x0 (i 1) _ hv 4 ![4, 0] rfl ![0, 0, 3072] rfl inb_S1x256x9216_S1x256x768_0_0_3072
      shapeCasts_S1x267x768_S267x768 slices_S267x768_o0_0_S256x768 slices_S267x768_o4_0_S256x768 shapeCasts_S256x768_S1x256x768 x
  · intro x
    exact piece_eq x0 (i 1) _ hv 3 ![3, 0] rfl ![0, 0, 2304] rfl inb_S1x256x9216_S1x256x768_0_0_2304
      shapeCasts_S1x267x768_S267x768 slices_S267x768_o0_0_S256x768 slices_S267x768_o3_0_S256x768 shapeCasts_S256x768_S1x256x768 x
  · intro x
    exact piece_eq x0 (i 1) _ hv 2 ![2, 0] rfl ![0, 0, 1536] rfl inb_S1x256x9216_S1x256x768_0_0_1536
      shapeCasts_S1x267x768_S267x768 slices_S267x768_o0_0_S256x768 slices_S267x768_o2_0_S256x768 shapeCasts_S256x768_S1x256x768 x
  · intro x
    exact piece_eq x0 (i 1) _ hv 1 ![1, 0] rfl ![0, 0, 768] rfl inb_S1x256x9216_S1x256x768_0_0_768
      shapeCasts_S1x267x768_S267x768 slices_S267x768_o0_0_S256x768 slices_S267x768_o1_0_S256x768 shapeCasts_S256x768_S1x256x768 x
  · intro x
    exact piece_eq x0 (i 1) _ hv 0 ![0, 0] rfl ![0, 0, 0] rfl inb_S1x256x9216_S1x256x768_0_0_0
      shapeCasts_S1x267x768_S267x768 slices_S267x768_o0_0_S256x768 slices_S267x768_o0_0_S256x768 shapeCasts_S256x768_S1x256x768 x

end Cert.KernelIdeal.KBlock

end
-- ==== Proof.RefOps.lean ====
/-
  Three host operations of the reference read at an index, over literal shapes and with no program in sight.

  * Padding x [4, 2048, 768] with 11 rows on the high side of axis 1 gives `Cert.Span.padded`: rows below 2048 are
    x's, rows 2048 … 2058 hold the padding value.
  * A gather of whole [4, 1, 768] slices of the padded array at a [2048, 12, 1] array of start rows — result element
    (b, i, k, d) is the padded array at (b, row, d), the row being the start index at (i, k) read as a signed integer
    and clamped into [0, 2058].
  * The start index the reference computes, the 32-bit word of i plus the 32-bit word of k, is the word of i + k, is
    not negative, and reads signed as i + k (all far below 2³¹).
-/
import Idealize.ShloMosaic.PureOps
import Idealize.ShloMosaic.Lib.ValueIdx
import proofs.«151792_j90099823935817_2_alg».proof.Proof.Spec

noncomputable section

namespace Cert.Span

open Idealize.ShloMosaic Idealize.ShloMosaic.ValueIdx

/-- The scalar shape, -/
abbrev S0 : Shape := ⟨0, ![]⟩
/-- and the start indices' shape. -/
abbrev SI : Shape := ⟨3, ![2048, 12, 1]⟩

/-! ## The pad -/

/-- `stablehlo.pad` with low [0, 0, 0], high [0, 11, 0] and no interior padding is `padded`: on every axis the
    operand coordinate is the result's own, and it exists exactly when the row is below 2048. -/
theorem pad_eq_padded (x : SX.Idx → EReal) (v : S0.Idx → EReal)
    (h : SX.Pads ![0, 0, 0] ![0, 11, 0] ![0, 0, 0] SP) (hu : 0 < S0.numel) :
    pad SP ![0, 0, 0] ![0, 11, 0] ![0, 0, 0] x v h hu = padded x (v ix0) := by
  funext p
  have h0 : (p 0).val < 4 := (p 0).isLt
  have h2 : (p 2).val < 768 := (p 2).isLt
  unfold pad padded
  split
  · rename_i hin
    have hp : (p 1).val < 2048 := by
      have := (hin 1).2.2
      have e : ((p 1).val - 0) / (0 + 1) < 2048 := this
      omega
    rw [dif_pos hp]
    congr 1
    funext a
    apply Fin.ext
    match a with
    | ⟨0, _⟩ => show ((p 0).val - 0) / (0 + 1) = (p 0).val; omega
    | ⟨1, _⟩ => show ((p 1).val - 0) / (0 + 1) = (p 1).val; omega
    | ⟨2, _⟩ => show ((p 2).val - 0) / (0 + 1) = (p 2).val; omega
  · rename_i hnin
    have hp : ¬ (p 1).val < 2048 := fun hp => hnin (fun a => by
      match a with
      | ⟨0, _⟩ => exact ⟨Nat.zero_le _, Nat.mod_one _, by show ((p 0).val - 0) / (0 + 1) < 4; omega⟩
      | ⟨1, _⟩ => exact ⟨Nat.zero_le _, Nat.mod_one _, by show ((p 1).val - 0) / (0 + 1) < 2048; omega⟩
      | ⟨2, _⟩ => exact ⟨Nat.zero_le _, Nat.mod_one _, by show ((p 2).val - 0) / (0 + 1) < 768; omega⟩)
    rw [dif_neg hp]
    congr 1
    funext a
    exact a.elim0

/-! ## The gather -/

/-- The gather's dimension numbers: the result's axes 0 and 3 run over the slice's kept axes (batch and feature), the
    operand's axis 1 is collapsed and is the one the start index names; slices are [4, 1, 768]. -/
abbrev spanDims (wf : GatherDims.WF SP SI SO [0, 3] [1] [] [1] [] 2 ![4, 1, 768]) : GatherDims SP SI SO where
  offsetDims := [0, 3]
  collapsedSliceDims := [1]
  operandBatchingDims := []
  startIndicesBatchingDims := []
  startIndexMap := [1]
  indexVectorDim := 2
  sliceSizes := ![4, 1, 768]
  wf := wf

/-- THE GATHER READ AT (b, i, k, d): the operand at (b, row, d), the row the start index at (i, k, 0) read signed and
    clamped into [0, 2058]. -/
theorem gather_apply (wf : GatherDims.WF SP SI SO [0, 3] [1] [] [1] [] 2 ![4, 1, 768]) (P : SP.Idx → EReal) (idx : IVec SI 32)
    (b : Fin 4) (i : Fin 2048) (k : Fin 12) (d : Fin 768) :
    Host.gather (spanDims wf) P idx (ix4 b i k d)
      = P (ix3 b (⟨min (idx (ix3 i k (0 : Fin 1))).toInt.toNat 2058, by omega⟩ : Fin 2059) d) := by
  unfold Host.gather
  congr 1
  funext a
  refine Fin.ext ?_
  show (spanDims wf).start (ix4 b i k d) idx a + (spanDims wf).batchCoord (ix4 b i k d) a + (spanDims wf).offCoord (ix4 b i k d) a = _
  rw [GatherDims.batchCoord_eq_zero _ _ _ List.not_mem_nil, Nat.add_zero]
  match a with
  | ⟨0, h⟩ =>
    have e1 : (⟨0, h⟩ : Fin SP.rank) ∉ (spanDims wf).startIndexMap := by
      show (0 : Fin 3) ∉ [(1 : Fin 3)]
      decide
    have e2 : (⟨0, h⟩ : Fin SP.rank) ∈ (spanDims wf).sKept := by
      show (0 : Fin 3) ∈ Shape.kept SP ([(1 : Fin 3)] ++ [])
      decide
    unfold GatherDims.start GatherDims.offCoord
    rw [dif_neg e1, dif_pos e2, Nat.zero_add]
    rfl
  | ⟨1, h⟩ =>
    have e1 : (⟨1, h⟩ : Fin SP.rank) ∈ (spanDims wf).startIndexMap := by
      show (1 : Fin 3) ∈ [(1 : Fin 3)]
      decide
    have e2 : (⟨1, h⟩ : Fin SP.rank) ∉ (spanDims wf).sKept := by
      show (1 : Fin 3) ∉ Shape.kept SP ([(1 : Fin 3)] ++ [])
      decide
    rw [GatherDims.offCoord_eq_zero _ _ _ e2, Nat.add_zero]
    unfold GatherDims.start
    rw [dif_pos e1]
    have hsi : (spanDims wf).siIdx (ix4 b i k d) ⟨List.idxOf (⟨1, h⟩ : Fin SP.rank) (spanDims wf).startIndexMap,
        List.idxOf_lt_length_iff.2 e1⟩ = ix3 i k (0 : Fin 1) := by
      funext c; refine Fin.ext ?_
      match c with
      | ⟨0, _⟩ => rfl
      | ⟨1, _⟩ => rfl
      | ⟨2, _⟩ => rfl
    rw [hsi]
    rfl
  | ⟨2, h⟩ =>
    have e1 : (⟨2, h⟩ : Fin SP.rank) ∉ (spanDims wf).startIndexMap := by
      show (2 : Fin 3) ∉ [(1 : Fin 3)]
      decide
    have e2 : (⟨2, h⟩ : Fin SP.rank) ∈ (spanDims wf).sKept := by
      show (2 : Fin 3) ∈ Shape.kept SP ([(1 : Fin 3)] ++ [])
      decide
    unfold GatherDims.start GatherDims.offCoord
    rw [dif_neg e1, dif_pos e2, Nat.zero_add]
    rfl

/-! ## The start index as a word -/

/-- The sum of the words of i and k is the word of i + k. -/
theorem word_add (i k : Nat) : IntOp.addi (BitVec.ofNat 32 i) (BitVec.ofNat 32 k) = BitVec.ofNat 32 (i + k) := by
  unfold IntOp.addi
  exact (BitVec.ofNat_add ..).symm

/-- The word of a number below 4096 reads signed as that number. -/
theorem word_toInt (n : Nat) (hn : n < 4096) : (BitVec.ofNat 32 n).toInt = (n : Int) := by
  have hm : (BitVec.ofNat 32 n).toNat = n := by
    rw [BitVec.toNat_ofNat]
    omega
  rw [BitVec.toInt_eq_toNat_of_lt (by rw [hm]; omega), hm]

/-- It is not negative. -/
theorem word_not_neg (n : Nat) (hn : n < 4096) : IntOp.cmpi .slt (BitVec.ofNat 32 n) 0#32 = 0#1 := by
  unfold IntOp.cmpi
  show BitVec.ofBool ((BitVec.ofNat 32 n).slt 0#32) = 0#1
  rw [BitVec.slt, word_toInt n hn]
  have h0 : (0#32 : BitVec 32).toInt = 0 := by decide
  rw [h0, decide_eq_false (by omega)]
  rfl

end Cert.Span

end
-- ==== Proof.KArray.lean ====
/-
  The kernel's output array after the run.

  The region finds, as its input array, the argument padded with 11 rows of the padding value (the host operations
  before the region). At grid point t = (b, l) the input window holds batch b's padded rows whole, and the output
  window's block is rows 256·l … 256·l + 255 of batch b of the [4, 2048, 9216] result; what the body leaves there
  (`out_eq`) is that block of `spanFlat` of the padded argument, because row r of the tile is row 256·l + r of the
  batch. The 32 blocks cover the array, so the array ends holding `spanFlat` of the padded argument.
-/
import proofs.«151792_j90099823935817_2_alg».proof.Proof.KOut
import proofs.«151792_j90099823935817_2_alg».proof.Proof.RefOps
import Idealize.ShloMosaic.Lib.StableHlo.Run

set_option maxRecDepth 16384

noncomputable section

namespace Cert.KernelIdeal.KArray

open Idealize.ShloMosaic Idealize.ShloMosaic.TcCoe Idealize.SL.Sem Idealize.ShloMosaic.Tactic
open Idealize.ShloMosaic.ValueIdx Idealize.ShloMosaic.StableHlo
open Idealize.ShloMosaic.Pipeline (Dat)
open Cert.KernelIdeal Cert.KernelIdeal.Gen Cert.KernelIdeal.KBlock
open Cert.Span

variable (m : (ℓ : Loc nD τ sig) → Buf (Elt Ideal) ℓ) (ρ : Dev nD → PrngReg)

/-- The padded argument on core c. -/
abbrev P (c : Dev nD) : SP.Idx → EReal := padded (m ((c : Thread nD τ).loc main_arg0)) zpad

/-- The region's input array is the padded argument: the host operations before the region are the constant zero,
    its conversion to a float, and the pad. -/
theorem V_v0 (c : Dev nD) : (V m c main_v0 : S4x2059x768.Idx → EReal) = P m c := by
  dsimp only [Gen.V, Gen.V0]
  simp only [hostOps0, hostOps0_1, List.flatten_cons, List.flatten_nil, List.append_nil, List.cons_append, List.nil_append]
  after_results
  show pad S4x2059x768 ![0, 0, 0] ![0, 11, 0] ![0, 0, 0] (m ((c : Thread nD τ).loc main_arg0))
      (sitofp (F := Ideal) .f32 (constantI S_ 32 0#32)) pads_S4x2048x768_S4x2059x768_000_0110_000 h_S_ = P m c
  exact pad_eq_padded _ _ _ _

/-- The printed index maps over the grid: the input window's block is (b, 0, 0), the output's (b, l, 0), with b < 4
    and l < 8 the point's coordinates. -/
theorem idx_facts : ∀ t : Fin cfg0.N,
    win0_0.index t (0 : Fin 3) = win0_1.index t (0 : Fin 3) ∧ win0_0.index t (1 : Fin 3) = 0 ∧ win0_0.index t (2 : Fin 3) = 0
    ∧ win0_1.index t (2 : Fin 3) = 0 ∧ win0_1.index t (0 : Fin 3) < 4 ∧ win0_1.index t (1 : Fin 3) < 8
    ∧ ((grid0.coords t) 1).val = win0_1.index t (1 : Fin 3) :=
  (by decide +kernel : ∀ t : Fin grid0.N, _)

/-- Every block of the output array is some point's. -/
theorem idx_onto : ∀ (q0 : Fin 4) (q1 : Fin 8), ∃ t : Fin cfg0.N, win0_1.index t = ![q0.val, q1.val, 0] :=
  (by decide +kernel : ∀ (q0 : Fin 4) (q1 : Fin 8), ∃ t : Fin grid0.N, win0_1.index t = ![q0.val, q1.val, 0])

/-- The input window's block at point t, read at (0, r, d): the padded argument at (b, r, d). -/
theorem iblk_eq (c : Dev nD) (t : Fin cfg0.N) (b : Fin 4) (hb : win0_0.index t (0 : Fin 3) = b.val)
    (h1 : win0_0.index t (1 : Fin 3) = 0) (h2 : win0_0.index t (2 : Fin 3) = 0) (r : Fin 2059) (d : Fin 768) :
    (iblk m c 0 t : SB.Idx → EReal) (ix3 (0 : Fin 1) r d) = P m c (ix3 b r d) := by
  rw [← V_v0 m c]
  show V m c main_v0 (((cfg0.win 0).blk t).view.emb (ix3 (0 : Fin 1) r d)) = V m c main_v0 (ix3 b r d)
  refine congrArg (V m c main_v0) ?_
  funext a
  apply Fin.ext
  match a with
  | ⟨0, _⟩ => show win0_0.index t (0 : Fin 3) * 1 + 1 * 0 = b.val; omega
  | ⟨1, _⟩ => show win0_0.index t (1 : Fin 3) * 2059 + 1 * r.val = r.val; omega
  | ⟨2, _⟩ => show win0_0.index t (2 : Fin 3) * 768 + 1 * d.val = d.val; omega

/-- WHAT POINT t WRITES BACK is block t of `spanFlat` of the padded argument. -/
theorem flushed_eq (c : Dev nD) (t : Fin cfg0.N) :
    (dats m 0 c).flushed 1 t = ((cfg0.win 1).blk t).view.read (Elt Ideal) (spanFlat (P m c)) := by
  show (cfg0.win 1).cut (grid0.coords t) ((dats m 0 c).after 1 t) = _
  rw [after0_1]
  unfold outsAt0
  rw [out_eq]
  obtain ⟨e0, e1, e2, e3, hb, hl, hc⟩ := idx_facts t
  funext y
  have hy0 : (y 0).val = 0 := by have h : (y 0).val < 1 := (y 0).isLt; omega
  have hy1 : (y 1).val < 256 := (y 1).isLt
  have hy2 : (y 2).val < 9216 := (y 2).isLt
  show blockVal (iblk m c 0 t) ((grid0.coords t) 1) y = spanFlat (P m c) (((cfg0.win 1).blk t).view.emb y)
  refine (congrArg₂ (fun u v : EReal => Ideal.log (Ideal.exp u + Ideal.exp v))
    (iblk_eq m c t ⟨win0_1.index t (0 : Fin 3), hb⟩ e0 e1 e2 _ _)
    (iblk_eq m c t ⟨win0_1.index t (0 : Fin 3), hb⟩ e0 e1 e2 _ _)).trans ?_
  unfold spanFlat spanAt
  refine congrArg₂ (fun u v => Ideal.log (Ideal.exp (P m c u) + Ideal.exp (P m c v))) ?_ ?_
  · funext a
    apply Fin.ext
    match a with
    | ⟨0, _⟩ => show win0_1.index t (0 : Fin 3) = win0_1.index t (0 : Fin 3) * 1 + 1 * (y 0).val; omega
    | ⟨1, _⟩ =>
      show 256 * ((grid0.coords t) 1).val + (y 1).val = win0_1.index t (1 : Fin 3) * 256 + 1 * (y 1).val
      omega
    | ⟨2, _⟩ =>
      show (y 2).val % 768 = (win0_1.index t (2 : Fin 3) * 9216 + 1 * (y 2).val) % 768
      rw [e3]; omega
  · funext a
    apply Fin.ext
    match a with
    | ⟨0, _⟩ => show win0_1.index t (0 : Fin 3) = win0_1.index t (0 : Fin 3) * 1 + 1 * (y 0).val; omega
    | ⟨1, _⟩ =>
      show 256 * ((grid0.coords t) 1).val + (y 1).val + (y 2).val / 768
        = win0_1.index t (1 : Fin 3) * 256 + 1 * (y 1).val + (win0_1.index t (2 : Fin 3) * 9216 + 1 * (y 2).val) / 768
      rw [e3]; omega
    | ⟨2, _⟩ =>
      show (y 2).val % 768 = (win0_1.index t (2 : Fin 3) * 9216 + 1 * (y 2).val) % 768
      rw [e3]; omega

/-- An index of the output array is in point t's block iff each coordinate is in the block's range on its axis. -/
theorem mem_blk (t : Fin cfg0.N) (i : S4x2048x9216.Idx) :
    i ∈ ((cfg0.win 1).blk t).view.set ↔ ∀ a : Fin 3, win0_1.index t a * S1x256x9216.size a ≤ (i a).val
      ∧ (i a).val < win0_1.index t a * S1x256x9216.size a + S1x256x9216.size a := by
  show i ∈ ((View.whole main_v1).slice (win0_1.rect t)).set ↔ _
  rw [View.set_slice_whole, Rect.mem_set_unit]
  exact Iff.rfl

/-- THE ARRAY after the run: `spanFlat` of the padded argument. -/
theorem final (c : Dev nD) : (dats m 0 c).arrAt 1 cfg0.N = spanFlat (P m c) :=
  (dats m 0 c).arrAt_eq_of_cover 1 (spanFlat (P m c)) (fun t _ => flushed_eq m c t) fun i => by
    have hi0 : (i 0).val < 4 := (i 0).isLt
    have hi1 : (i 1).val < 2048 := (i 1).isLt
    have hi2 : (i 2).val < 9216 := (i 2).isLt
    obtain ⟨t, ht⟩ := idx_onto ⟨(i 0).val, hi0⟩ ⟨(i 1).val / 256, by omega⟩
    have q0 : win0_1.index t (0 : Fin 3) = (i 0).val := congrFun ht 0
    have q1 : win0_1.index t (1 : Fin 3) = (i 1).val / 256 := congrFun ht 1
    have q2 : win0_1.index t (2 : Fin 3) = 0 := congrFun ht 2
    refine ⟨t, flush0_1 t, ?_⟩
    rw [mem_blk]
    intro a
    match a with
    | ⟨0, _⟩ =>
      show win0_1.index t (0 : Fin 3) * 1 ≤ (i 0).val ∧ (i 0).val < win0_1.index t (0 : Fin 3) * 1 + 1
      omega
    | ⟨1, _⟩ =>
      show win0_1.index t (1 : Fin 3) * 256 ≤ (i 1).val ∧ (i 1).val < win0_1.index t (1 : Fin 3) * 256 + 256
      omega
    | ⟨2, _⟩ =>
      show win0_1.index t (2 : Fin 3) * 9216 ≤ (i 2).val ∧ (i 2).val < win0_1.index t (2 : Fin 3) * 9216 + 9216
      omega

end Cert.KernelIdeal.KArray

end
-- ==== Proof.SpanReshape.lean ====
/-
  Splitting the merged lane axis. The result laid out [4, 2048, 9216] and cast to [4, 2048, 12, 768] reads, at
  (b, i, k, d), the flat array at (b, i, 768·k + d): the two indices have the same row-major position,
  ((b·2048 + i)·12 + k)·768 + d = (b·2048 + i)·9216 + 768·k + d. And lane 768·k + d of the flat span array is width k,
  feature d. So the cast of `spanFlat P` is `span P`.
-/
import Idealize.ShloMosaic.Lib.Pipeline.Value
import Idealize.ShloMosaic.Lib.ValueIdx
import proofs.«151792_j90099823935817_2_alg».proof.Proof.Spec

noncomputable section

namespace Cert.Span

open Idealize.ShloMosaic Idealize.ShloMosaic.ValueIdx

theorem reshape_spanFlat (P : SP.Idx → EReal) (h : SF.ShapeCasts SO) : shapeCast SO (spanFlat P) h = span P := by
  funext j
  obtain ⟨b, i, k, d, rfl⟩ : ∃ (b : Fin 4) (i : Fin 2048) (k : Fin 12) (d : Fin 768), j = ix4 b i k d :=
    ⟨j 0, j 1, j 2, j 3, eq_ix4 j⟩
  have hb := b.isLt
  have hi := i.isLt
  have hk := k.isLt
  have hd := d.isLt
  refine (shapeCast_apply (spanFlat P) h (ix4 b i k d) (ix3 b i (⟨768 * k.val + d.val, by omega⟩ : Fin 9216)) ?_).trans ?_
  · rw [Shape.rowMajor_val_three, Shape.rowMajor_val_four]
    show (b.val * 2048 + i.val) * 9216 + (768 * k.val + d.val) = ((b.val * 2048 + i.val) * 12 + k.val) * 768 + d.val
    omega
  · show spanAt P b i (laneK (⟨768 * k.val + d.val, by omega⟩ : Fin 9216)) (laneD (⟨768 * k.val + d.val, by omega⟩ : Fin 9216))
      = spanAt P b i k d
    refine congrArg₂ (spanAt P b i) (Fin.ext ?_) (Fin.ext ?_)
    · show (768 * k.val + d.val) / 768 = k.val
      omega
    · show (768 * k.val + d.val) % 768 = d.val
      omega

end Cert.Span

end
-- ==== Proof.KRun.lean ====
/-
  The kernel program's run with its two results named.

  After the region the host reshapes the [4, 2048, 9216] array to [4, 2048, 12, 768] — the span values — and builds
  the index bookkeeping array [2048, 12, 2] from two iotas: entry (i, k, 0) is i and entry (i, k, 1) is i + k, as
  32-bit words, independent of the argument. The generated frame run states every buffer the host tail writes as
  the tail's operations applied to the memory the region leaves; read here: the first result is the reshape of the
  region's output array (`final`), the second the closed term `spanIdx`.
-/
import proofs.«151792_j90099823935817_2_alg».proof.Proof.KArray
import proofs.«151792_j90099823935817_2_alg».proof.Proof.SpanReshape

set_option maxRecDepth 16384

noncomputable section

namespace Cert.KernelIdeal.KRun

open Idealize.ShloMosaic Idealize.ShloMosaic.TcCoe Idealize.SL.Sem Idealize.ShloMosaic.Tactic
open Idealize.ShloMosaic.ValueIdx Idealize.ShloMosaic.StableHlo
open Idealize.ShloMosaic.Pipeline (Dat)
open Cert.KernelIdeal Cert.KernelIdeal.Gen Cert.KernelIdeal.KArray
open Cert.Span

variable (m : (ℓ : Loc nD τ sig) → Buf (Elt Ideal) ℓ) (ρ : Dev nD → PrngReg)

/-- The index bookkeeping array: start row i and end row i + k of every span, as words. -/
def spanIdx : IVec S2048x12x2 32 :=
  concatenate S2048x12x2 2
    [⟨S2048x12x1, broadcastInDim S2048x12x1 ![0, 1] bcast_S2048x12_S2048x12x1_0_1
        (broadcastInDim S2048x12 ![0, 1] bcast_S2048x1_S2048x12_0_1
          (broadcastInDim S2048x1 ![0] bcast_S2048_S2048x1_0 (iotaInDim S2048 32 0)))⟩,
     ⟨S2048x12x1, broadcastInDim S2048x12x1 ![0, 1] bcast_S2048x12_S2048x12x1_0_1
        (addi (broadcastInDim S2048x12 ![0, 1] bcast_S2048x1_S2048x12_0_1
            (broadcastInDim S2048x1 ![0] bcast_S2048_S2048x1_0 (iotaInDim S2048 32 0)))
          (broadcastInDim S2048x12 ![0, 1] bcast_S1x12_S2048x12_0_1
            (broadcastInDim S1x12 ![1] bcast_S12_S1x12_1 (iotaInDim S12 32 0))))⟩]
    concatenates_S2048x12x1_S2048x12x1_S2048x12x2_d2

/-- The host tail's first result over ANY memory W: the reshape of what W holds at the region's output array. -/
theorem tail_v2 (W : Valuation τ sig (Elt Ideal)) :
    StableHlo.after (hostOps1 (F := Ideal)) W (Proc.devRef .tc main_v2)
      = shapeCast S4x2048x12x768 (W (Proc.devRef .tc main_v1) : S4x2048x9216.Idx → EReal) shapeCasts_S4x2048x9216_S4x2048x12x768 := by
  after_results_simp <;> rfl

/-- The host tail's second result over ANY memory W: the closed term. -/
theorem tail_v14 (W : Valuation τ sig (Elt Ideal)) :
    StableHlo.after (hostOps1 (F := Ideal)) W (Proc.devRef .tc main_v14) = spanIdx := by
  after_results_simp <;> rfl

/-- The first result after the run: the span values of the padded argument. -/
theorem post_v2 (c : Dev nD) :
    Pipeline.afterTail₀ cfgs (dats m) 0 (V0 m) [hostOps1] c main_v2 = span (P m c) := by
  unfold Pipeline.afterTail₀
  show StableHlo.after hostOps1 _ (Proc.devRef .tc main_v2) = _
  refine (tail_v2 _).trans ?_
  have hW : (Pipeline.withArrays spec0 c (V0 m c) (fun w => (dats m 0 c).arrAt w cfg0.N) (Proc.devRef .tc main_v1)
      : S4x2048x9216.Idx → EReal) = spanFlat (P m c) :=
    (Pipeline.withArrays_arr spec0 launch0.win.arr_inj c _ _ 1).trans (final m c)
  exact (congrArg (fun z : S4x2048x9216.Idx → EReal =>
    shapeCast S4x2048x12x768 z shapeCasts_S4x2048x9216_S4x2048x12x768) hW).trans (reshape_spanFlat _ _)

/-- The second result after the run. -/
theorem post_v14 (c : Dev nD) :
    Pipeline.afterTail₀ cfgs (dats m) 0 (V0 m) [hostOps1] c main_v14 = spanIdx := by
  unfold Pipeline.afterTail₀
  show StableHlo.after hostOps1 _ (Proc.devRef .tc main_v14) = _
  exact tail_v14 _

/-- THE RUN: every weakly fair execution terminates with the first result at the span values of the padded argument,
    the second at the index bookkeeping array, and the argument unchanged. -/
theorem run : θ_run defs (onTc (τ := τ) (main (F := Ideal))) ⟨m, fun _ => 0, ρ⟩ fun r => ∀ c : Dev nD,
      r.2.mem ((c.tc : Thread nD τ).loc main_v2) = span (P m c)
      ∧ r.2.mem ((c.tc : Thread nD τ).loc main_v14) = spanIdx
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (post_v2 m c),
     ((h c).2 main_v14 (Pipeline.mem_restRefs_of main_v14 (by decide) (by decide))).trans (post_v14 m c),
     ((h c).2 main_arg0 (Pipeline.mem_restRefs_of main_arg0 (by decide) (by decide))).trans (W_main_arg0 m (dats m) c)⟩)
    (run_main m ρ)

end Cert.KernelIdeal.KRun

end
-- ==== Proof.RefValue.lean ====
/-
  The reference's first result, read index by index, is the span value of the padded argument.

  At (b, i, k, d) the reference takes the start s = x(b, i, d) (the argument repeated along the width axis) and the
  end e = the padded argument at row i + k (a gather whose start index is the word of i plus the word of k), and
  returns the guarded stable log-sum-exp of the two. Row i + k ≤ 2058 is inside the padded array, so the gather's
  clamp does nothing; the start row i < 2048 of the padded array IS x's row; and for a finite x and a real padding
  value both endpoints are real numbers, where the stable form and the direct form agree.
-/
import proofs.«151792_j90099823935817_2_alg».proof.Proof.Gen.ReferenceIdeal.Read
import proofs.«151792_j90099823935817_2_alg».proof.Proof.RefOps
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.Span

/-- The padded array the reference builds is `padded x zpad`. -/
theorem padded_eq (x : S4x2048x768.Idx → EReal) : val_main_v0 (F := Ideal) x = padded x zpad := by
  unfold val_main_v0
  exact pad_eq_padded x _ _ _

/-- The start index at (i, k): the word of i + k (the comparison with zero that would wrap a negative index around is
    false, so the select keeps the sum). -/
theorem start_word (i : Fin 2048) (k : Fin 12) :
    val_main_v13 (F := Ideal) (ix3 i k (0 : Fin 1)) = BitVec.ofNat 32 (i.val + k.val) := by
  have hi := i.isLt
  have hk := k.isLt
  simp only [val_main_v13_apply, val_main_v12_apply, val_main_v9_apply, val_main_v7_apply, val_main_v8_apply,
    val_main_c_0_apply, val_main_v5_apply, val_main_v6_apply, val_main_v3_apply, val_main_v4_apply, val_main_v1_apply,
    val_main_v2_apply]
  show Scalar.select (IntOp.cmpi .slt (IntOp.addi (BitVec.ofNat 32 i.val) (BitVec.ofNat 32 k.val)) 0#32) _
      (IntOp.addi (BitVec.ofNat 32 i.val) (BitVec.ofNat 32 k.val)) = _
  rw [word_add, word_not_neg _ (by omega), select_zero]

/-- The gathered end at (b, i, k, d) is the padded array at row i + k. -/
theorem end_eq (x : S4x2048x768.Idx → EReal) (b : Fin 4) (i : Fin 2048) (k : Fin 12) (d : Fin 768) :
    val_main_v14 (F := Ideal) x (ix4 b i k d) = padded x zpad (ix3 b (rowE i k) d) := by
  have hi := i.isLt
  have hk := k.isLt
  unfold val_main_v14
  rw [padded_eq]
  refine (gather_apply gather_S4x2059x768_S2048x12x1_S4x2048x12x768_03_1_n_n_1_2_41768_wf (padded x zpad)
    (val_main_v13 (F := Ideal)) b i k d).trans ?_
  refine congrArg (padded x zpad) ?_
  funext a
  apply Fin.ext
  match a with
  | ⟨0, _⟩ => rfl
  | ⟨1, _⟩ =>
    show min (val_main_v13 (F := Ideal) (ix3 i k (0 : Fin 1))).toInt.toNat 2058 = i.val + k.val
    rw [start_word, word_toInt _ (by omega)]
    have : ((i.val + k.val : Nat) : Int).toNat = i.val + k.val := Int.toNat_natCast _
    rw [this]
    omega
  | ⟨2, _⟩ => rfl

/-- The repeated start at (b, i, k, d) is x at (b, i, d), which is the padded array's row i. -/
theorem start_idx16 (b : Fin 4) (i : Fin 2048) (k : Fin 12) (d : Fin 768) :
    idx_main_v15 (idx_main_v16 (ix4 b i k d)) = ix3 b i d := by
  funext a
  match a with
  | ⟨0, _⟩ => rfl
  | ⟨1, _⟩ => rfl
  | ⟨2, _⟩ => rfl
theorem start_idx18 (b : Fin 4) (i : Fin 2048) (k : Fin 12) (d : Fin 768) :
    idx_main_v15 (idx_main_v18 (ix4 b i k d)) = ix3 b i d := by
  funext a
  match a with
  | ⟨0, _⟩ => rfl
  | ⟨1, _⟩ => rfl
  | ⟨2, _⟩ => rfl
theorem start_idx21 (b : Fin 4) (i : Fin 2048) (k : Fin 12) (d : Fin 768) :
    idx_main_v15 (idx_main_v21 (ix4 b i k d)) = ix3 b i d := by
  funext a
  match a with
  | ⟨0, _⟩ => rfl
  | ⟨1, _⟩ => rfl
  | ⟨2, _⟩ => rfl

theorem start_eq (x : S4x2048x768.Idx → EReal) (b : Fin 4) (i : Fin 2048) (d : Fin 768) :
    x (ix3 b i d) = padded x zpad (ix3 b (rowS i) d) :=
  (padded_lo x zpad b (rowS i) d i.isLt).symm

/-- THE REFERENCE'S RESULT: for a finite argument, the span value of the padded argument at every index. -/
theorem result_eq (x : S4x2048x768.Idx → EReal) (hx : ∀ i, ∃ r : ℝ, x i = (r : EReal)) :
    val_main_v28 (F := Ideal) x = span (padded x zpad) := by
  funext j
  obtain ⟨b, i, k, d, rfl⟩ : ∃ (b : Fin 4) (i : Fin 2048) (k : Fin 12) (d : Fin 768), j = ix4 b i k d :=
    ⟨j 0, j 1, j 2, j 3, eq_ix4 j⟩
  simp only [val_main_v28_apply, val_main_v20_apply, val_main_v22_apply, val_main_v27_apply, val_main_v17_apply,
    val_main_v26_apply, val_main_v25_apply, val_main_v24_apply, val_main_v23_apply, val_main_v19_apply,
    val_main_v16_apply, val_main_v18_apply, val_main_v21_apply, val_main_v15_apply,
    start_idx16, start_idx18, start_idx21, end_eq, start_eq x b i d]
  exact stable_eq _ _ (padded_real x zpad hx zpad_real _) (padded_real x zpad hx zpad_real _)

end Cert.ReferenceIdeal.RefValue

end
-- ==== Proof.Finite.lean ====
/-
  The precondition read back: every entry of the argument is a real number.

  The precondition is "all of |x| < +inf": a reduction by `and`, over every axis, of the comparisons of each entry's
  absolute value with the float +inf. If the reduction is 1, every comparison is 1; on the extended reals the absolute
  value of x is max x (-x), which is +inf exactly at the two infinities, so an entry whose absolute value is below +inf
  is neither of them: it is a real number.
-/
import proofs.«151792_j90099823935817_2_alg».proof.Pre_finite_inputs
import proofs.«151792_j90099823935817_2_alg».proof.Proof.Gen.Pre_finite_inputs
import Idealize.ShloMosaic.Lib.ReduceAll
import Idealize.ShloMosaic.Lib.ValueIdx
import Idealize.ShloMosaic.PureOps.Ideal

noncomputable section

namespace Cert.Span

open Idealize.ShloMosaic Idealize.ShloMosaic.ValueIdx

instance : Subsingleton Cert.Pre_finite_inputs.S_.Idx := ⟨fun a b => funext fun d => d.elim0⟩

/-- The float +inf is the top extended real. -/
theorem inf_word : Ideal.ofBits .f32 0x7F800000#32 = (⊤ : EReal) := by
  simp [Ideal.ofBits, Ideal.ieee]

/-- An extended real whose absolute value is below +inf is a real number. -/
theorem real_of_abs_lt_top (v : EReal) (h : max v (-v) < ⊤) : ∃ r : ℝ, v = (r : EReal) := by
  induction v using EReal.rec with
  | bot => simp at h
  | coe r => exact ⟨r, rfl⟩
  | top => simp at h

/-- Under the precondition every entry of the argument is a real number. -/
theorem real_of_pre (x : FVec Ideal Cert.Pre_finite_inputs.S4x2048x768 .f32)
    (h : Cert.Pre_finite_inputs.fn (F := Ideal) x = fun _ => 1#1) (i : Cert.Pre_finite_inputs.S4x2048x768.Idx) :
    ∃ r : ℝ, x i = (r : EReal) := by
  have h0 := congrFun h ix0
  dsimp only [Cert.Pre_finite_inputs.fn] at h0
  have hi := Host.reduce_andi_all _ _ _ _ ix0 h0 i
  have hi' : Ideal.cmp .olt (max (x i) (-(x i))) (Ideal.ofBits .f32 0x7F800000#32) = 1#1 := hi
  rw [inf_word] at hi'
  refine real_of_abs_lt_top (x i) ?_
  by_contra hn
  simp [Ideal.cmp, hn] at hi'

end Cert.Span

end
-- ==== Proof.lean ====
/-
  Span endpoints pooled by log-sum-exp: a tiled kernel against its jnp reference, over the extended reals.

  x is [4, 2048, 768]. Both programs pad x with 11 rows of zeros on axis 1 (P, [4, 2059, 768]) and return, for every
  batch b, start row i, width k < 12 and feature d, the log-sum-exp of the span's two endpoints P(b, i, d) and
  P(b, i + k, d), together with an integer array of the endpoints' rows (i and i + k) that does not depend on x.

  The kernel computes log (exp s + exp e) directly: at grid point (b, l) it loads rows 256·l … 256·l + 266 of batch b,
  takes the exponential once, and for each width k stores log (exp(row r) + exp(row r + k)) at lanes 768·k … of a
  [256, 9216] tile; the host reshapes [4, 2048, 9216] to [4, 2048, 12, 768]. The reference gathers the end rows and
  uses the stable form max s e + log (1 + exp (-|s - e|)) behind a test for a not-a-number difference.

  On the extended reals the test is never met, and for REAL s and e the two forms are one real number
  (log (exp s + exp e) = max s e + log (1 + exp (-|s - e|)), because exp s + exp e = exp (max s e) · (1 + exp (-|s - e|))).
  The precondition makes every entry of x real, and the padding value is the real number 0, so every endpoint is real:
  that is the only place finiteness is used. The rest is where each program reads P: the kernel's twelve lane tiles
  are tiles of one function of the tile index, the 32 tiles cover the array, and the reshape splits lane 768·k + d
  back into (k, d); the reference's gather reads row i + k ≤ 2058, inside P, so its clamp does nothing.

  The integer results are the same operations on the same iotas in both programs.
  The idealization rewrote nothing, so `preserves` has nothing to state; the three frames are the generated ones
  (the reference's is its generated run with the results dropped).
-/
import proofs.«151792_j90099823935817_2_alg».proof.Defs
import proofs.«151792_j90099823935817_2_alg».proof.Proof.Gen.Kernel
import proofs.«151792_j90099823935817_2_alg».proof.Proof.Gen.Kernel.Skeleton
import proofs.«151792_j90099823935817_2_alg».proof.Proof.Gen.Kernel.Launch
import proofs.«151792_j90099823935817_2_alg».proof.Proof.Gen.Kernel.Points
import proofs.«151792_j90099823935817_2_alg».proof.Proof.Gen.Kernel.Frame
import proofs.«151792_j90099823935817_2_alg».proof.Proof.Gen.KernelIdeal
import proofs.«151792_j90099823935817_2_alg».proof.Proof.Gen.KernelIdeal.Skeleton
import proofs.«151792_j90099823935817_2_alg».proof.Proof.Gen.KernelIdeal.Launch
import proofs.«151792_j90099823935817_2_alg».proof.Proof.Gen.KernelIdeal.Points
import proofs.«151792_j90099823935817_2_alg».proof.Proof.Gen.KernelIdeal.Frame
import proofs.«151792_j90099823935817_2_alg».proof.Proof.Gen.ReferenceIdeal
import proofs.«151792_j90099823935817_2_alg».proof.Proof.Gen.Pre_finite_inputs
import proofs.«151792_j90099823935817_2_alg».proof.Proof.Gen.ReferenceIdeal.Run
import proofs.«151792_j90099823935817_2_alg».proof.Proof.Gen.ReferenceIdeal.Read
import proofs.«151792_j90099823935817_2_alg».proof.Proof.KRun
import proofs.«151792_j90099823935817_2_alg».proof.Proof.RefValue
import proofs.«151792_j90099823935817_2_alg».proof.Proof.Finite
import Idealize.ShloMosaic.Adequacy
import Idealize.ShloMosaic.Init

noncomputable section

namespace Cert.Proof

open Idealize.ShloMosaic Idealize.SL.Sem

/-- The kernel as printed runs and keeps its argument. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the span values of the padded argument and the same index array: the kernel by its tiles
    and the reshape, the reference by its gather and the stable form, equal to the direct form at real endpoints. -/
theorem algebraic : Cert.algebraic_KernelIdeal_ReferenceIdeal := by
  intro m ρ m' ρ' hpre hagree
  refine ⟨fun c => Cert.Span.span (Cert.KernelIdeal.KArray.P m c), fun _ => Cert.KernelIdeal.KRun.spanIdx,
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, hagree c]
    exact Cert.ReferenceIdeal.RefValue.result_eq _ (fun i => Cert.Span.real_of_pre _ (hpre c) i)
  · rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
